-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S2000x256 : Shape := ⟨2, ![2000, 256]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 63
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x256_S256x128_S2000x128_1_0_0_1_n_n_wf : DotDims.WF S2000x256 S256x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run with its RESULT array named.

  The program is two kernel regions (the node-feature matrix product; the bias-and-activation epilogue) among stretches
  of host operations (the edge-list bookkeeping, the degree normalisation, the gather and the scatter-add). Every weakly
  fair execution terminates, and in the final state the result buffer holds what the last region's write-backs leave
  of it — the fold of the per-point blocks over the contents the region was entered with — while the four argument
  arrays hold what they held at launch. The contents at each segment boundary are the fold `W0 … W5` through the
  program; this module only reads the last boundary's contents at the result buffer as well as at the arguments.
-/
import proofs.«178378_j16853451670131_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and the four arguments end as launched. -/
theorem run_out : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

/-- The result buffer's last contents are the epilogue region's write-backs folded over the contents it was entered with. -/
theorem out_last (c : Dev nD) :
    W5 m ρ c (Proc.devRef .tc main_v45) = (dat1 (V4 m ρ) c).arrAt 2 cfg1.N := W5_arr m ρ c 2

/-- The matrix-product region's result buffer, when the region is left, holds its write-backs folded over the launch contents. -/
theorem xw_last (c : Dev nD) :
    W1 m ρ c (Proc.devRef .tc main_v0) = (dat0 (V0 m ρ) c).arrAt 2 cfg0.N := W1_arr m ρ c 2

end Cert.KernelIdeal.Whole

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.Dense.lean ====
/-
  The two dense stages of the layer, as functions of whole arrays over the extended reals.

    * `rowsTimes X W`: the node features times the weights, entry (r, q) = `∑ c, X (r, c) · W (c, q)`.
    * `smoothGate v`: the tanh form of the Gaussian-error gate,
        `v · (1/2 · (1 + tanh (s · (v + k · (v · (v · v))))))`,
      with `1/2`, `1`, `s` (the single-precision value nearest `√(2/π)`) and `k` (the one nearest `0.044715`) the four
      single-precision words both programs print; the words are never evaluated.
    * `biasedGate A b`: entry (r, q) = `smoothGate (A (r, q) + b (0, q))`, the bias a one-row array.
    * `biasRow b`: the bias vector as that one-row array.
-/
import proofs.«178378_j16853451670131_1_alg».proof.Proof.Gen.KernelIdeal
import Idealize.ShloMosaic.PureOps.Ideal
import Idealize.ShloMosaic.Lib.ValueIdx
import Idealize.ShloMosaic.Lib.ValueLayout

noncomputable section

namespace Cert.Layer

open Cert.KernelIdeal Idealize.ShloMosaic Idealize.ShloMosaic.ValueIdx

/-- The node features times the weights: entry (r, q) is `∑ c, X (r, c) · W (c, q)`. -/
def rowsTimes (X : FVec Ideal S100000x256 .f32) (Wt : FVec Ideal S256x128 .f32) : FVec Ideal S100000x128 .f32 :=
  fun i => ∑ c : Fin 256, X (ix2 (n0 := 100000) (n1 := 256) (i 0) c) * Wt (ix2 (n0 := 256) (n1 := 128) c (i 1))

/-- The tanh form of the Gaussian-error gate on one extended real. -/
def smoothGate (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * (v * v))))))

/-- The gate of every entry plus its column's bias. -/
def biasedGate (A : FVec Ideal S100000x128 .f32) (b : FVec Ideal S1x128 .f32) : FVec Ideal S100000x128 .f32 :=
  fun i => smoothGate (A i + b (ix2 (n0 := 1) (n1 := 128) 0 (i 1)))

/-- The bias vector as a [1, 128] array. -/
def biasRow (b : FVec Ideal S128 .f32) : FVec Ideal S1x128 .f32 :=
  shapeCast S1x128 b Cert.KernelIdeal.Gen.shapeCasts_S128_S1x128

/-- Its one row is the vector. -/
theorem biasRow_apply (b : FVec Ideal S128 .f32) (q : Fin 128) : biasRow b (ix2 (0 : Fin 1) q) = b (ix1 q) :=
  shapeCast_a_1a_apply (a := 128) b Cert.KernelIdeal.Gen.shapeCasts_S128_S1x128 0 q

end Cert.Layer

end
-- ==== Proof.MatmulValue.lean ====
/-
  The matrix-product region, read as a whole array.

  The region walks the 100000 rows of the node features in 50 blocks of 2000 rows. At grid point `t` the body multiplies
  rows `2000 t … 2000 t + 1999` of the features (a [2000, 256] block) by the whole [256, 128] weight matrix into a zero
  accumulator and stores the [2000, 128] product as rows `2000 t …` of the result. The narrowing of both operands to
  bf16 before the product is the identity on the extended reals, so entry (p, q) of the block is
  `∑ c, X (2000 t + p, c) · W (c, q)`: block `t` of ONE function of the two arrays, `rowsTimes X W`. The 50 blocks tile
  the result array (row `r` lies in block `r / 2000`), so after the region the array IS that function.
-/
import proofs.«178378_j16853451670131_1_alg».proof.Proof.Gen.KernelIdeal.Frame
import proofs.«178378_j16853451670131_1_alg».proof.Proof.LibPlainMatmul
import proofs.«178378_j16853451670131_1_alg».proof.Proof.Dense
import Idealize.ShloMosaic.Lib.Pipeline.Value
import Idealize.ShloMosaic.Lib.ValueIdx

set_option maxRecDepth 16384

noncomputable section

namespace Cert.Layer

open Cert.KernelIdeal Cert.KernelIdeal.Gen
open Idealize.ShloMosaic Idealize.ShloMosaic.TcCoe Idealize.ShloMosaic.ValueIdx Idealize.SL.Sem
open Idealize.ShloMosaic.Pipeline (Dat)

theorem zeroOffsets : (![0, 0] : Fin 2 → Nat) = fun _ => 0 := funext fun a => by fin_cases a <;> rfl

/-- The body's stored value at entry (p, q): the block of features times the weights, summed over the shared axis. -/
theorem blockProduct (x0 : Vec Ideal S2000x256 .f32) (x1 : Vec Ideal S256x128 .f32) (p : Fin 2000) (q : Fin 128) :
    k0_pay1 x0 x1 (ix2 p q) = ∑ c : Fin 256, x0 (ix2 p c) * x1 (ix2 c q) := by
  unfold k0_pay1
  exact Cert.Lib.matmul_plain_zero_apply (m := 2000) (k := 256) (n := 128) none
    (truncf .bf16 x0 bitsLt_bf16_f32) (truncf .bf16 x1 bitsLt_bf16_f32) p q

/-- The printed index maps over the grid: the feature and result windows step one block of rows per point, the
    weight window stays put. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the feature window's block at point `t` is the feature array at row `2000 t + p`. -/
theorem featureBlock (X : FVec Ideal S100000x256 .f32) (t : Fin cfg0.N) (p : Fin 2000) (k : Fin 256) (i : S100000x128.Idx)
    (hi : (i 0).val = t.val * 2000 + p.val) :
    X (((cfg0.win 0).blk t).view.emb (ix2 p k)) = X (ix2 (n0 := 100000) (n1 := 256) (i 0) k) := by
  refine congrArg X (funext fun a => Fin.ext ?_)
  obtain ⟨e0, e1, -⟩ := blockIndices t
  match a with
  | ⟨0, _⟩ => show win0_0.index t (0 : Fin 2) * 2000 + 1 * p.val = (i 0).val; rw [e0, hi]; omega
  | ⟨1, _⟩ => show win0_0.index t (1 : Fin 2) * 256 + 1 * k.val = k.val; rw [e1]; omega

/-- The weight window's one block is the weight array. -/
theorem weightBlock (Wt : FVec Ideal S256x128 .f32) (t : Fin cfg0.N) (k : Fin 256) (q : Fin 128) (i : S100000x128.Idx)
    (hi : (i 1).val = q.val) :
    Wt (((cfg0.win 1).blk t).view.emb (ix2 k q)) = Wt (ix2 (n0 := 256) (n1 := 128) k (i 1)) := by
  refine congrArg Wt (funext fun a => Fin.ext ?_)
  obtain ⟨-, -, e2, e3, -⟩ := blockIndices t
  match a with
  | ⟨0, _⟩ => show win0_1.index t (0 : Fin 2) * 256 + 1 * k.val = k.val; rw [e2]; omega
  | ⟨1, _⟩ => show win0_1.index t (1 : Fin 2) * 128 + 1 * q.val = (i 1).val; rw [e3, hi]; omega

/-- The sum over the shared axis of the two blocks' entries is the entry of `rowsTimes` under the result block. -/
theorem blocksTimes (X : FVec Ideal S100000x256 .f32) (Wt : FVec Ideal S256x128 .f32) (t : Fin cfg0.N) (p : Fin 2000)
    (q : Fin 128) (i : S100000x128.Idx) (hrow : (i 0).val = t.val * 2000 + p.val) (hcol : (i 1).val = q.val) :
    ∑ k : Fin 256, X (((cfg0.win 0).blk t).view.emb (ix2 p k)) * Wt (((cfg0.win 1).blk t).view.emb (ix2 k q))
      = rowsTimes X Wt i := by
  unfold rowsTimes
  exact Finset.sum_congr rfl fun k _ => by rw [featureBlock X t p k i hrow, weightBlock Wt t k q i hcol]

variable (V : (c : Dev nD) → (b : Ref sig .tc) → Buf (Elt Ideal) ((c : Thread nD τ).loc b))

/-- WHAT POINT `t` WRITES BACK is block `t` of `rowsTimes` of the two arrays as the region finds them. -/
theorem productFlushed (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  funext j
  obtain ⟨p, q, rfl⟩ : ∃ (p : Fin 2000) (q : Fin 128), j = ix2 p q := ⟨j 0, j 1, eq_ix2 (n0 := 2000) (n1 := 128) j⟩
  show k0_pay1 (iblk0 V c 0 t) (iblk0 V c 1 t) (ix2 p q)
    = rowsTimes (V c main_arg0) (V c main_arg2) (((cfg0.win 2).blk t).view.emb (ix2 p q))
  refine (blockProduct (iblk0 V c 0 t) (iblk0 V c 1 t) p q).trans ?_
  have hrow : ((((cfg0.win 2).blk t).view.emb (ix2 p q)) 0).val = t.val * 2000 + p.val := by
    obtain ⟨-, -, -, -, e4, -⟩ := blockIndices t
    show win0_2.index t (0 : Fin 2) * 2000 + 1 * p.val = _
    rw [e4]; omega
  have hcol : ((((cfg0.win 2).blk t).view.emb (ix2 p q)) 1).val = q.val := by
    obtain ⟨-, -, -, -, -, e5⟩ := blockIndices t
    show win0_2.index t (1 : Fin 2) * 128 + 1 * q.val = _
    rw [e5]; omega
  exact blocksTimes (V c main_arg0) (V c main_arg2) t p q _ hrow hcol

/-- A row of the result lies in the block of the point `row / 2000`. -/
theorem productCover (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  refine ⟨t, flush0_2 t, ?_⟩
  show i ∈ ((View.whole main_v0).slice (win0_2.rect t)).set
  rw [View.set_slice_whole, Rect.mem_set_unit]
  obtain ⟨-, -, -, -, e4, e5⟩ := blockIndices t
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-- THE RESULT ARRAY of the region: the features times the weights, whatever contents the region is entered with. -/
theorem productArray (c : Dev nD) :
    (dat0 V c).arrAt 2 cfg0.N = rowsTimes (V c main_arg0) (V c main_arg2) :=
  (dat0 V c).arrAt_eq_of_cover 2 (rowsTimes (V c main_arg0) (V c main_arg2))
    (fun t _ => productFlushed V c t) productCover

end Cert.Layer

end
-- ==== Proof.GateValue.lean ====
/-
  The epilogue region, read as a whole array.

  The region walks the 100000 rows of the aggregated features in 50 blocks of 2000 rows; the bias row is one block
  fetched once. At grid point `t` the body adds the bias row to every row of its block and applies the gate entry by
  entry, so what it stores is block `t` of ONE function of the two arrays, `biasedGate A b`. The 50 blocks tile the
  result array, so after the region the array IS that function.
-/
import proofs.«178378_j16853451670131_1_alg».proof.Proof.Gen.KernelIdeal.Frame
import proofs.«178378_j16853451670131_1_alg».proof.Proof.Dense
import Idealize.ShloMosaic.Lib.Pipeline.Value
import Idealize.ShloMosaic.Lib.ValueIdx
import Idealize.ShloMosaic.Lib.ValueLayout

set_option maxRecDepth 16384

noncomputable section

namespace Cert.Layer

open Cert.KernelIdeal Cert.KernelIdeal.Gen
open Idealize.ShloMosaic Idealize.ShloMosaic.TcCoe Idealize.ShloMosaic.ValueIdx Idealize.SL.Sem
open Idealize.ShloMosaic.Pipeline (Dat)

theorem noOffsets : (![0, 0] : Fin 2 → Nat) = fun _ => 0 := funext fun a => by fin_cases a <;> rfl

/-- The body's stored value at entry (p, q): the gate of the block's entry plus the bias row's entry of that column. -/
theorem blockGate (x0 : Vec Ideal S2000x128 .f32) (x1 : Vec Ideal S1x128 .f32) (p : Fin 2000) (q : Fin 128) :
    k1_pay1 x0 x1 (ix2 p q) = smoothGate (x0 (ix2 p q) + x1 (ix2 (0 : Fin 1) q)) := by
  unfold k1_pay1
  simp only [shapeCast_self]
  show smoothGate (x0 (ix2 p q) + broadcastTo S2000x128 x1 broadcasts_S1x128_S2000x128 (ix2 p q)) = _
  refine congrArg (fun z => smoothGate (x0 (ix2 p q) + z)) ?_
  exact broadcastTo_1b_ab_apply (a := 2000) (b := 128) x1 broadcasts_S1x128_S2000x128 p q

/-- The printed index maps over the grid: the row window and the result window step one block of rows per point,
    the bias window stays put. -/
theorem gateIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the row window's block at point `t` is the array's entry under the result window's block. -/
theorem rowBlock (A : FVec Ideal S100000x128 .f32) (t : Fin cfg1.N) (p : Fin 2000) (q : Fin 128) :
    A (((cfg1.win 0).blk t).view.emb (ix2 p q)) = A (((cfg1.win 2).blk t).view.emb (ix2 p q)) := by
  refine congrArg A (funext fun a => Fin.ext ?_)
  obtain ⟨e0, e1, -, -, e4, e5⟩ := gateIndices t
  match a with
  | ⟨0, _⟩ => show win1_0.index t (0 : Fin 2) * 2000 + 1 * p.val = win1_2.index t (0 : Fin 2) * 2000 + 1 * p.val; rw [e0, e4]
  | ⟨1, _⟩ => show win1_0.index t (1 : Fin 2) * 128 + 1 * q.val = win1_2.index t (1 : Fin 2) * 128 + 1 * q.val; rw [e1, e5]

/-- The bias window's one block is the bias row. -/
theorem biasBlock (b : FVec Ideal S1x128 .f32) (t : Fin cfg1.N) (q : Fin 128) (i : S100000x128.Idx)
    (hi : (i 1).val = q.val) :
    b (((cfg1.win 1).blk t).view.emb (ix2 (0 : Fin 1) q)) = b (ix2 (n0 := 1) (n1 := 128) 0 (i 1)) := by
  refine congrArg b (funext fun a => Fin.ext ?_)
  obtain ⟨-, -, e2, e3, -⟩ := gateIndices t
  match a with
  | ⟨0, _⟩ => show win1_1.index t (0 : Fin 2) * 1 + 1 * 0 = 0; rw [e2]
  | ⟨1, _⟩ => show win1_1.index t (1 : Fin 2) * 128 + 1 * q.val = (i 1).val; rw [e3, hi]; omega

/-- The gate of the two blocks' entries is the entry of `biasedGate` under the result block. -/
theorem blocksGate (A : FVec Ideal S100000x128 .f32) (b : FVec Ideal S1x128 .f32) (t : Fin cfg1.N) (p : Fin 2000) (q : Fin 128) :
    smoothGate (A (((cfg1.win 0).blk t).view.emb (ix2 p q)) + b (((cfg1.win 1).blk t).view.emb (ix2 (0 : Fin 1) q)))
      = biasedGate A b (((cfg1.win 2).blk t).view.emb (ix2 p q)) := by
  have hcol : ((((cfg1.win 2).blk t).view.emb (ix2 p q)) 1).val = q.val := by
    obtain ⟨-, -, -, -, -, e5⟩ := gateIndices t
    show win1_2.index t (1 : Fin 2) * 128 + 1 * q.val = _
    rw [e5]; omega
  rw [rowBlock A t p q, biasBlock b t q _ hcol]
  rfl

variable (V : (c : Dev nD) → (b : Ref sig .tc) → Buf (Elt Ideal) ((c : Thread nD τ).loc b))

/-- WHAT POINT `t` WRITES BACK is block `t` of `biasedGate` of the two arrays as the region finds them. -/
theorem gateFlushed (c : Dev nD) (t : Fin cfg1.N) :
    (dat1 V c).flushed 2 t = ((cfg1.win 2).blk t).view.read (Elt Ideal) (biasedGate (V c main_v43) (V c main_v44)) := by
  show (cfg1.win 2).cut (grid1.coords t) ((dat1 V c).after 2 t) = _
  rw [after1_2]
  unfold out1_2
  rw [View.canon_unit_zero noOffsets]
  simp only [View.ld_unit_zero (S := S2000x128) noOffsets, View.ld_unit_zero (S := S1x128) noOffsets]
  funext j
  obtain ⟨p, q, rfl⟩ : ∃ (p : Fin 2000) (q : Fin 128), j = ix2 p q := ⟨j 0, j 1, eq_ix2 (n0 := 2000) (n1 := 128) j⟩
  show k1_pay1 (iblk1 V c 0 t) (iblk1 V c 1 t) (ix2 p q)
    = biasedGate (V c main_v43) (V c main_v44) (((cfg1.win 2).blk t).view.emb (ix2 p q))
  refine (blockGate (iblk1 V c 0 t) (iblk1 V c 1 t) p q).trans ?_
  exact blocksGate (V c main_v43) (V c main_v44) t p q

/-- A row of the result lies in the block of the point `row / 2000`. -/
theorem gateCover (i : S100000x128.Idx) :
    ∃ t : Fin cfg1.N, (cfg1.win 2).flush t = true ∧ i ∈ ((cfg1.win 2).blk t).view.set := by
  have h0 : (i 0).val < 100000 := (i 0).isLt
  have h1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  refine ⟨t, flush1_2 t, ?_⟩
  show i ∈ ((View.whole main_v45).slice (win1_2.rect t)).set
  rw [View.set_slice_whole, Rect.mem_set_unit]
  obtain ⟨-, -, -, -, e4, e5⟩ := gateIndices t
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 128 ≤ (i 1).val ∧ (i 1).val < win1_2.index t (1 : Fin 2) * 128 + 128
    rw [e5]; omega

/-- THE RESULT ARRAY of the region: the gate of the rows plus the bias, whatever contents the region is entered with. -/
theorem gateArray (c : Dev nD) :
    (dat1 V c).arrAt 2 cfg1.N = biasedGate (V c main_v43) (V c main_v44) :=
  (dat1 V c).arrAt_eq_of_cover 2 (biasedGate (V c main_v43) (V c main_v44))
    (fun t _ => gateFlushed V c t) gateCover

end Cert.Layer

end
-- ==== Proof.Graph.lean ====
/-
  The graph stage of the layer, as functions of whole arrays.

  From the edge list `E : i32[2, 1600000]` both programs build the same thing, one host operation after another:
    * `sources E`, `targets E`: row 0, resp. row 1, of `E` followed by the 100000 self loops `0, 1, …, 99999`
      (1700000 entries);
    * `wrapIndex v`: a negative entry `k` of `v` replaced by `k + 100000` (indexing from the end);
    * `degree E`: for each node the number of entries of `targets E` that name it — the scatter-add of ones;
    * `invSqrtDegree E`: `degree ^ (-1/2)` where the degree is positive and `0` elsewhere;
    * `edgeWeight E`: per entry, the product of `invSqrtDegree` gathered at its (wrapped) source and at its target;
    * `messages Y E`: per entry, row `source` of the node features `Y` scaled by that entry's weight;
    * `aggregate Y E`: the scatter-add of the messages into their target rows, from zero.
  Nothing here is opened by the proof: the two programs apply this one chain to node features that are shown equal,
  so the chain is carried as a function and only ever compared with itself.
-/
import proofs.«178378_j16853451670131_1_alg».proof.Proof.Gen.KernelIdeal

noncomputable section

namespace Cert.Layer

open Cert.KernelIdeal Cert.KernelIdeal.Gen Idealize.ShloMosaic

-- the chain is stated for any reading of the floats: nothing in it is specific to the extended reals
variable {F : FTy → Type} [FloatOps F]

/-- Row `r` of the edge list as a flat vector, then the self loops. -/
def sources (E : IVec S2x1600000 32) : IVec S1700000 32 :=
  concatenate S1700000 0 [⟨S1600000, shapeCast S1600000 (extractStridedSlice S1x1600000 ![0, 0] E slices_S2x1600000_S1x1600000_0_0) shapeCasts_S1x1600000_S1600000⟩, ⟨S100000, iotaInDim S100000 32 0⟩] concatenates_S1600000_S100000_S1700000_d0

def targets (E : IVec S2x1600000 32) : IVec S1700000 32 :=
  concatenate S1700000 0 [⟨S1600000, shapeCast S1600000 (extractStridedSlice S1x1600000 ![1, 0] E slices_S2x1600000_S1x1600000_1_0) shapeCasts_S1x1600000_S1600000⟩, ⟨S100000, iotaInDim S100000 32 0⟩] concatenates_S1600000_S100000_S1700000_d0

/-- A negative index counts from the end: `k < 0` becomes `k + 100000`. -/
def wrapIndex (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An index vector as the one-column matrix the gather and the scatter take. -/
def asColumn (v : IVec S1700000 32) : IVec S1700000x1 32 :=
  broadcastInDim S1700000x1 ![0] bcast_S1700000_S1700000x1_0 v

/-- How many entries of the target list name each node. -/
def degree (E : IVec S2x1600000 32) : FVec F S100000 .f32 :=
  Host.scatterAdd scatter_S100000_S1700000x1_S1700000_n_0_0_1
    (broadcastInDim S100000 ![] bcast_S_S100000 (constant (F := F) S_ .f32 0x00000000#32))
    (asColumn (targets E))
    (broadcastInDim S1700000 ![] bcast_S_S1700000 (constant (F := F) S_ .f32 0x3F800000#32))

/-- `degree ^ (-1/2)` where the degree is positive, zero elsewhere. -/
def invSqrtDegree (E : IVec S2x1600000 32) : FVec F S100000 .f32 :=
  select (cmpf (F := F) .ogt (degree E) (broadcastInDim S100000 ![] bcast_S_S100000 (constant (F := F) S_ .f32 0x00000000#32)))
    (Host.rsqrt (degree E))
    (broadcastInDim S100000 ![] bcast_S_S100000 (id (constant (F := F) S_ .f32 0x00000000#32)))

/-- Per entry of the edge list: the symmetric normalisation `d(source)^(-1/2) · d(target)^(-1/2)`. -/
def edgeWeight (E : IVec S2x1600000 32) : FVec F S1700000 .f32 :=
  mulf (Host.gather gather_S100000_S1700000x1_S1700000_n_0_n_n_0_1_1 (invSqrtDegree E) (asColumn (wrapIndex (sources E))))
    (Host.gather gather_S100000_S1700000x1_S1700000_n_0_n_n_0_1_1 (invSqrtDegree E) (asColumn (wrapIndex (targets E))))

/-- Per entry: the source node's feature row scaled by the entry's weight. -/
def messages (Y : FVec F S100000x128 .f32) (E : IVec S2x1600000 32) : FVec F S1700000x128 .f32 :=
  mulf (Host.gather gather_S100000x128_S1700000x1_S1700000x128_1_0_n_n_0_1_1128 Y (asColumn (wrapIndex (sources E))))
    (broadcastInDim S1700000x128 ![0, 1] bcast_S1700000x1_S1700000x128_0_1
      (broadcastInDim S1700000x1 ![0] bcast_S1700000_S1700000x1_0 (edgeWeight E)))

/-- The messages summed into their target rows. -/
def aggregate (Y : FVec F S100000x128 .f32) (E : IVec S2x1600000 32) : FVec F S100000x128 .f32 :=
  Host.scatterAdd scatter_S100000x128_S1700000x1_S1700000x128_1_0_0_1
    (broadcastInDim S100000x128 ![] bcast_S_S100000x128 (constant (F := F) S_ .f32 0x00000000#32))
    (asColumn (targets E)) (messages Y E)

end Cert.Layer

end
-- ==== Proof.GraphEntered.lean ====
/-
  The host stretches between the two kernel regions, read at the buffers the epilogue region is entered with.

  Between the matrix-product region and the epilogue region the program runs 57 host operations (three stretches: the
  edge-list bookkeeping and the degree count; the `where`; the gathers, the weights and the scatter-add). Folded over
  the contents the first region leaves, the buffer the epilogue reads its rows from holds `aggregate` of the first
  region's result and of the edge list, and the buffer it reads the bias from holds the bias as one row.
-/
import proofs.«178378_j16853451670131_1_alg».proof.Proof.Gen.KernelIdeal.Frame
import proofs.«178378_j16853451670131_1_alg».proof.Proof.Graph
import Idealize.ShloMosaic.Lib.StableHlo.Run

set_option maxRecDepth 16384

noncomputable section

namespace Cert.Layer

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- The edge list is untouched by the first region. -/
theorem edgesKept (c : Dev nD) : W1 m ρ c (Proc.devRef .tc main_arg1) = m ((c : Thread nD τ).loc main_arg1) :=
  (W1_of_ne m ρ c main_arg1 (by decide)).trans rfl

/-- The bias is untouched by the first region. -/
theorem biasKept (c : Dev nD) : W1 m ρ c (Proc.devRef .tc main_arg3) = m ((c : Thread nD τ).loc main_arg3) :=
  (W1_of_ne m ρ c main_arg3 (by decide)).trans rfl

set_option maxHeartbeats 4000000 in
set_option maxRecDepth 65536 in
/-- From ANY contents `U`, the three stretches leave in the aggregation's buffer `aggregate` of what `U` holds in the
    first region's result buffer and in the edge list. -/
theorem aggregateAfter (U : Valuation τ sig (Elt F)) :
    StableHlo.after hostOps1_2 (StableHlo.after hostOps1_1 (StableHlo.after hostOps1 U)) (Proc.devRef .tc main_v43)
      = aggregate (U (Proc.devRef .tc main_v0)) (U (Proc.devRef .tc main_arg1)) := by
  after_results_simp
  rfl

set_option maxHeartbeats 4000000 in
set_option maxRecDepth 65536 in
/-- and in the bias row's buffer the bias vector as a [1, 128] array. -/
theorem biasAfter (U : Valuation τ sig (Elt F)) :
    StableHlo.after hostOps1_2 (StableHlo.after hostOps1_1 (StableHlo.after hostOps1 U)) (Proc.devRef .tc main_v44)
      = shapeCast S1x128 (U (Proc.devRef .tc main_arg3)) shapeCasts_S128_S1x128 := by
  after_results_simp
  rfl

/-- The rows the epilogue reads: the aggregation of the first region's result over the edge list. -/
theorem aggregateEntered (c : Dev nD) :
    W4 m ρ c (Proc.devRef .tc main_v43)
      = aggregate (W1 m ρ c (Proc.devRef .tc main_v0)) (W1 m ρ c (Proc.devRef .tc main_arg1)) :=
  aggregateAfter (W1 m ρ c)

/-- The bias row the epilogue reads: the bias vector as a [1, 128] array. -/
theorem biasEntered (c : Dev nD) :
    W4 m ρ c (Proc.devRef .tc main_v44)
      = shapeCast S1x128 (W1 m ρ c (Proc.devRef .tc main_arg3)) shapeCasts_S128_S1x128 :=
  biasAfter (W1 m ρ c)

end Cert.Layer

end
-- ==== Proof.KernelValue.lean ====
/-
  The idealized kernel program's result as ONE function of its four arguments.

  Reading the run from its end: the result buffer holds the epilogue region's array, `biasedGate` of the two buffers
  that region is entered with; those hold `aggregate` of the first region's result over the edge list, and the bias as
  one row; the first region's result is `rowsTimes` of the features and the weights. Composed:
      result = biasedGate (aggregate (rowsTimes X W) E) (biasRow b).
-/
import proofs.«178378_j16853451670131_1_alg».proof.Proof.KernelRun
import proofs.«178378_j16853451670131_1_alg».proof.Proof.MatmulValue
import proofs.«178378_j16853451670131_1_alg».proof.Proof.GateValue
import proofs.«178378_j16853451670131_1_alg».proof.Proof.GraphEntered

set_option maxRecDepth 16384

noncomputable section

namespace Cert.Layer

open Cert.KernelIdeal Cert.KernelIdeal.Gen Cert.KernelIdeal.Whole
open Idealize.ShloMosaic Idealize.ShloMosaic.TcCoe Idealize.SL.Sem

/-- The whole layer on the extended reals. -/
def layer (X : FVec Ideal S100000x256 .f32) (E : IVec S2x1600000 32) (Wt : FVec Ideal S256x128 .f32)
    (b : FVec Ideal S128 .f32) : FVec Ideal S100000x128 .f32 :=
  biasedGate (aggregate (rowsTimes X Wt) E) (biasRow b)

variable (m : (ℓ : Loc nD τ sig) → Buf (Elt Ideal) ℓ) (ρ : Dev nD → PrngReg)

/-- The result buffer's last contents are the layer of the launch contents of the four arguments. -/
theorem resultLast (c : Dev nD) :
    W5 m ρ c (Proc.devRef .tc main_v45)
      = layer (m ((c.tc : Thread nD τ).loc main_arg0)) (m ((c.tc : Thread nD τ).loc main_arg1))
          (m ((c.tc : Thread nD τ).loc main_arg2)) (m ((c.tc : Thread nD τ).loc main_arg3)) := by
  rw [out_last, gateArray (V4 m ρ) c]
  show biasedGate (W4 m ρ c (Proc.devRef .tc main_v43)) (W4 m ρ c (Proc.devRef .tc main_v44)) = _
  rw [aggregateEntered, biasEntered, xw_last, productArray (V0 m ρ) c, edgesKept, biasKept]
  rfl

/-- Every weakly fair execution of the idealized kernel program terminates with the result buffer at the layer of the
    arguments and the arguments unchanged. -/
theorem kernelRun : θ_run defs (onTc (τ := τ) (main (F := Ideal))) ⟨m, fun _ => 0, ρ⟩ (fun r => ∀ c : Dev nD,
      r.2.mem ((c.tc : Thread nD τ).loc main_v45)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (resultLast m ρ c), (h c).2⟩) (run_out m ρ)

end Cert.Layer

end
-- ==== Proof.RefValue.lean ====
/-
  The idealized reference program's result as the same function of its four arguments.

  The reference computes the whole [100000, 256] × [256, 128] product on the host, applies the same graph stage to it,
  then adds the bias (broadcast over the rows) and applies the gate by the same eighteen pointwise operations, except
  that it forms the cube as `(v · v) · v` where the kernel forms `v · (v · v)`. On the extended reals:
    * the host product's entry (r, q) is `∑ c, X (r, c) · W (c, q)` — `rowsTimes`;
    * the graph stage is the one chain `aggregate` (the two programs print it operation for operation);
    * multiplication of extended reals is commutative, so the two cubes are one number, and the rest of the gate is
      the same expression in the same order.
-/
import proofs.«178378_j16853451670131_1_alg».proof.Proof.RefRun
import proofs.«178378_j16853451670131_1_alg».proof.Proof.Graph
import proofs.«178378_j16853451670131_1_alg».proof.Proof.Dense
import Idealize.ShloMosaic.Lib.StackMember
import Idealize.ShloMosaic.Lib.ValueLayout
import Idealize.ShloMosaic.Lib.Pipeline.Value
import Idealize.ShloMosaic.PureOps.Ideal.Laws

set_option maxRecDepth 16384

noncomputable section

namespace Cert.Layer.Reference

open Cert.ReferenceIdeal Cert.ReferenceIdeal.Gen
open Idealize.ShloMosaic Idealize.ShloMosaic.TcCoe Idealize.ShloMosaic.ValueIdx Idealize.SL.Sem

/-- The host's product of the features and the weights is `rowsTimes`. -/
theorem hostProduct (X : FVec Ideal S100000x256 .f32) (Wt : FVec Ideal S256x128 .f32) :
    Host.dotGeneral dot_S100000x256_S256x128_S100000x128_1_0_0_1_n_n none X Wt = Cert.Layer.rowsTimes X Wt := by
  funext i
  obtain ⟨r, q, rfl⟩ : ∃ (r : Fin 100000) (q : Fin 128), i = ix2 r q := ⟨i 0, i 1, eq_ix2 (n0 := 100000) (n1 := 128) i⟩
  exact StackMember.dotGeneral_plain_apply (m := 100000) (k := 256) (n := 128) none X Wt r q

section AnyFloats
-- the reference's term is read off its run for any reading of the floats; only the algebra below is over the extended reals
variable {F : FTy → Type} [FloatOps F]

/-- A single-precision word splat over the result's shape. -/
abbrev splat (w : BitVec 32) : FVec F S100000x128 .f32 :=
  broadcastInDim S100000x128 ![] bcast_S_S100000x128 (constant (F := F) S_ .f32 w)

/-- The bias vector repeated down the rows. -/
abbrev biasRows (b : FVec F S128 .f32) : FVec F S100000x128 .f32 :=
  broadcastInDim S100000x128 ![0, 1] bcast_S1x128_S100000x128_0_1 (broadcastInDim S1x128 ![1] bcast_S128_S1x128_1 b)

/-- The reference's last operations as one function of the aggregated features and the bias. -/
def gateTail (A : FVec F S100000x128 .f32) (b : FVec F S128 .f32) : FVec F S100000x128 .f32 :=
  mulf (addf A (biasRows b)) (mulf (splat 0x3F000000#32) (addf (splat 0x3F800000#32) (Host.tanh (mulf (splat 0x3F4C422A#32)
    (addf (addf A (biasRows b)) (mulf (splat 0x3D372713#32)
      (mulf (mulf (addf A (biasRows b)) (addf A (biasRows b))) (addf A (biasRows b)))))))))

/-- The composed term the reference's run leaves in its result buffer is the gate's tail of the graph stage of the
    host product. -/
theorem resultTerm (m : (ℓ : Loc nD τ sig) → Buf (Elt F) ℓ) (c : Dev nD) :
    Cert.ReferenceIdeal.ValueP.res_main_v59 m c
      = gateTail (Cert.Layer.aggregate
          (Host.dotGeneral dot_S100000x256_S256x128_S100000x128_1_0_0_1_n_n none
            (m ((c.tc : Thread nD τ).loc main_arg0) : FVec F S100000x256 .f32) (m ((c.tc : Thread nD τ).loc main_arg2) : FVec F S256x128 .f32))
          (m ((c.tc : Thread nD τ).loc main_arg1))) (m ((c.tc : Thread nD τ).loc main_arg3)) := by
  unfold Cert.ReferenceIdeal.ValueP.res_main_v59
  rfl

end AnyFloats

/-- The repeated bias at (r, q) is the bias at q. -/
theorem biasRows_apply (b : FVec Ideal S128 .f32) (r : Fin 100000) (q : Fin 128) :
    biasRows (F := Ideal) b (ix2 r q) = b (ix1 q) := by
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The reference's gate is the kernel's: the two cubes are one number. -/
theorem gateTail_eq (A : FVec Ideal S100000x128 .f32) (b : FVec Ideal S128 .f32) :
    gateTail (F := Ideal) A b = Cert.Layer.biasedGate A (Cert.Layer.biasRow b) := by
  funext i
  obtain ⟨r, q, rfl⟩ : ∃ (r : Fin 100000) (q : Fin 128), i = ix2 r q := ⟨i 0, i 1, eq_ix2 (n0 := 100000) (n1 := 128) i⟩
  have cube : ∀ v : EReal, v * v * v = v * (v * v) := fun v => mul_comm (v * v) v
  show (A (ix2 r q) + biasRows (F := Ideal) b (ix2 r q)) * (Ideal.ofBits .f32 0x3F000000#32 * (Ideal.ofBits .f32 0x3F800000#32
      + Ideal.tanh (Ideal.ofBits .f32 0x3F4C422A#32 * ((A (ix2 r q) + biasRows (F := Ideal) b (ix2 r q)) + Ideal.ofBits .f32 0x3D372713#32
        * ((A (ix2 r q) + biasRows (F := Ideal) b (ix2 r q)) * (A (ix2 r q) + biasRows (F := Ideal) b (ix2 r q)) * (A (ix2 r q) + biasRows (F := Ideal) b (ix2 r q)))))))
    = Cert.Layer.smoothGate (A (ix2 r q) + Cert.Layer.biasRow b (ix2 (0 : Fin 1) q))
  rw [biasRows_apply, Cert.Layer.biasRow_apply, cube]
  rfl

/-- The reference's result is the layer of its arguments. -/
theorem resultValue (m : (ℓ : Loc nD τ sig) → Buf (Elt Ideal) ℓ) (c : Dev nD) :
    Cert.ReferenceIdeal.ValueP.res_main_v59 m c
      = Cert.Layer.biasedGate (Cert.Layer.aggregate
          (Cert.Layer.rowsTimes (m ((c.tc : Thread nD τ).loc main_arg0)) (m ((c.tc : Thread nD τ).loc main_arg2)))
          (m ((c.tc : Thread nD τ).loc main_arg1))) (Cert.Layer.biasRow (m ((c.tc : Thread nD τ).loc main_arg3))) := by
  rw [resultTerm, hostProduct, gateTail_eq]

end Cert.Layer.Reference

end
-- ==== Proof.lean ====
/-
  One graph-convolution layer — node features times weights, messages gathered along the edges (with self loops)
  under the symmetric degree normalisation and summed into their targets, then a bias and the tanh form of the
  Gaussian-error gate — computed two ways, agrees on the extended reals.

  The kernel program does the matrix product in a kernel region, 2000 rows of the features at a time, on operands
  narrowed to bf16 (the identity on the extended reals); does the graph stage on the host; and does the bias and the
  gate in a second kernel region, again 2000 rows at a time. The reference does everything on the host. Both results
  are the one function
      layer X E W b = biasedGate (aggregate (rowsTimes X W) E) (biasRow b):
    * each kernel region's blocks tile its result array, and each block is the block of one whole-array function
      (`rowsTimes`, `biasedGate`) of the arrays the region reads;
    * the host stretches between the regions are, operation for operation, the reference's: `aggregate`, never opened;
    * the host's product is the same sum over the shared axis, and the reference's gate differs only in forming the cube
      `(v · v) · v` for `v · (v · v)`: multiplication of extended reals is commutative.
  No step needs the inputs to be finite: the precondition is not used by the value claim.
  The three frames are the programs' runs with the result forgotten; the idealized kernel is the printed kernel read at
  the extended reals with no rewrite, so there is nothing to preserve.
-/
import proofs.«178378_j16853451670131_1_alg».proof.Defs
import proofs.«178378_j16853451670131_1_alg».proof.Proof.Gen.Kernel
import proofs.«178378_j16853451670131_1_alg».proof.Proof.Gen.Kernel.Skeleton
import proofs.«178378_j16853451670131_1_alg».proof.Proof.Gen.Kernel.Launch
import proofs.«178378_j16853451670131_1_alg».proof.Proof.Gen.Kernel.Points
import proofs.«178378_j16853451670131_1_alg».proof.Proof.Gen.Kernel.Frame
import proofs.«178378_j16853451670131_1_alg».proof.Proof.Gen.KernelIdeal
import proofs.«178378_j16853451670131_1_alg».proof.Proof.Gen.KernelIdeal.Skeleton
import proofs.«178378_j16853451670131_1_alg».proof.Proof.Gen.KernelIdeal.Launch
import proofs.«178378_j16853451670131_1_alg».proof.Proof.Gen.KernelIdeal.Points
import proofs.«178378_j16853451670131_1_alg».proof.Proof.Gen.KernelIdeal.Frame
import proofs.«178378_j16853451670131_1_alg».proof.Proof.Gen.ReferenceIdeal
import proofs.«178378_j16853451670131_1_alg».proof.Proof.Gen.Pre_finite_inputs
import proofs.«178378_j16853451670131_1_alg».proof.Proof.KernelValue
import proofs.«178378_j16853451670131_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the four arguments both idealized programs end with the layer of the arguments in
    their result buffers. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Layer.kernelRun m ρ, ?_⟩
  refine (θ_run Cert.ReferenceIdeal.defs _ _).mono (fun _ h c => ⟨(h c).1.trans ?_, (h c).2⟩)
    (Cert.ReferenceIdeal.ValueP.run (F := Ideal) m' ρ')
  rw [Cert.Layer.Reference.resultValue, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
